-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel

variable [Facts]

def fn {F : FTy → Type} [FloatOps F] (main_arg0 : FVec F S128x8192 .f32) (main_arg1 : FVec F S128x8192 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  main_v8
-- ==== Kernel.lean ====
abbrev S128x8192 : Shape := ⟨2, ![128, 8192]⟩
abbrev S_ : Shape := ⟨0, ![]⟩
abbrev S8192 : Shape := ⟨1, ![8192]⟩
abbrev S1x8192 : Shape := ⟨2, ![1, 8192]⟩
abbrev S129x8192 : Shape := ⟨2, ![129, 8192]⟩
abbrev S8192x129 : Shape := ⟨2, ![8192, 129]⟩
abbrev S8192x8192 : Shape := ⟨2, ![8192, 8192]⟩
abbrev S1024x129 : Shape := ⟨2, ![1024, 129]⟩
abbrev S129x1024 : Shape := ⟨2, ![129, 1024]⟩
abbrev S1024x1024 : Shape := ⟨2, ![1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S1x8192, .f32⟩
  | .hbm, ⟨10, _⟩ => ⟨S128x8192, .f32⟩
  | .hbm, ⟨11, _⟩ => ⟨S128x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S1x8192, .f32⟩
  | .hbm, ⟨16, _⟩ => ⟨S129x8192, .f32⟩
  | .hbm, ⟨17, _⟩ => ⟨S129x8192, .bf16⟩
  | .hbm, ⟨18, _⟩ => ⟨S8192x129, .bf16⟩
  | .hbm, ⟨19, _⟩ => ⟨S128x8192, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S1x8192, .f32⟩
  | .hbm, ⟨27, _⟩ => ⟨S128x8192, .f32⟩
  | .hbm, ⟨28, _⟩ => ⟨S128x8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S1x8192, .f32⟩
  | .hbm, ⟨33, _⟩ => ⟨S129x8192, .f32⟩
  | .hbm, ⟨34, _⟩ => ⟨S129x8192, .bf16⟩
  | .hbm, ⟨35, _⟩ => ⟨S8192x8192, .f32⟩
  | .local _ .vmem, ⟨0, _⟩ => ⟨S1024x129, .bf16⟩
  | .local _ .vmem, ⟨1, _⟩ => ⟨S1024x129, .bf16⟩
  | .local _ .vmem, ⟨2, _⟩ => ⟨S129x1024, .bf16⟩
  | .local _ .vmem, ⟨3, _⟩ => ⟨S129x1024, .bf16⟩
  | .local _ .vmem, ⟨4, _⟩ => ⟨S1024x1024, .f32⟩
  | .local _ .vmem, ⟨5, _⟩ => ⟨S1024x1024, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x129 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S129x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S128x8192_S8192_d0 : S128x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S128x8192_0_1 : S1x8192.BroadcastsInDim S128x8192 (![0, 1] : Fin 2 → Fin S128x8192.rank)
  concatenates_S128x8192_S1x8192_S129x8192_d0 : Shape.Concatenates [S128x8192, S1x8192] S129x8192 0
  bitsLt_bf16_f32 : FTy.bits .bf16 < FTy.bits .f32
  transposes_S129x8192_S8192x129_1_0 : S129x8192.Transposes [1, 0] S8192x129
  inb_S1024x129_S1024x129_0_0 : ∀ a, (![0, 0] : Fin 2 → Nat) a + S1024x129.size a ≤ S1024x129.size a
  h_S1024x129 : 0 < S1024x129.numel
  shapeCasts_S1024x129_S1024x129 : S1024x129.ShapeCasts S1024x129
  inb_S129x1024_S129x1024_0_0 : ∀ a, (![0, 0] : Fin 2 → Nat) a + S129x1024.size a ≤ S129x1024.size a
  h_S129x1024 : 0 < S129x1024.numel
  shapeCasts_S129x1024_S129x1024 : S129x1024.ShapeCasts S129x1024
  inb_S1024x1024_S1024x1024_0_0 : ∀ a, (![0, 0] : Fin 2 → Nat) a + S1024x1024.size a ≤ S1024x1024.size a
  h_S1024x1024 : 0 < S1024x1024.numel
  dot_S1024x129_S129x1024_S1024x1024_1_0_0_1_n_n_wf : DotDims.WF S1024x129 S129x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x129.size a ≤ S8192x129.size a
  hwx0_0 : ∀ i : grid0.Coords, EltTy.bits .bf16 = 32 ∨ (Rect.block (s := S8192x129) S1024x129.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S129x1024.size a ≤ S129x8192.size a
  hwx0_1 : ∀ i : grid0.Coords, EltTy.bits .bf16 = 32 ∨ (Rect.block (s := S129x8192) S129x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x129_S129x1024_S1024x1024_1_0_0_1_n_n : DotDims S1024x129 S129x1024 S1024x1024 where
  lhsContracting := [1]
  rhsContracting := [0]
  lhsNonContracting := [0]
  rhsNonContracting := [1]
  lhsBatch := []
  rhsBatch := []
  wf := dot_S1024x129_S129x1024_S1024x1024_1_0_0_1_n_n_wf

abbrev win0_0 : Pipeline.Window sig grid0 :=
  Pipeline.Window.ofSpec (Memref.whole main_v13) S1024x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S129x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192 : Shape := ⟨2, ![128, 8192]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S128x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S1x8192, .f32⟩
  | .hbm, ⟨36, _⟩ => ⟨S8192x8192, .f32⟩
  | .hbm, ⟨37, _⟩ => ⟨S8192x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S128x8192_S8192_d0 : S128x8192.ReducesTo [0] S8192
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S128x8192_S128x8192_S8192x8192_0_0_1_1_n_n_wf : DotDims.WF S128x8192 S128x8192 S8192x8192 [0] [0] [1] [1] [] []

variable [Facts₀]

def dot_S128x8192_S128x8192_S8192x8192_0_0_1_1_n_n : DotDims S128x8192 S128x8192 S8192x8192 where
  lhsContracting := [0]
  rhsContracting := [0]
  lhsNonContracting := [1]
  rhsNonContracting := [1]
  lhsBatch := []
  rhsBatch := []
  wf := dot_S128x8192_S128x8192_S8192x8192_0_0_1_1_n_n_wf

class Facts : Prop extends Facts₀ where

variable [Facts]
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.Finite.lean ====
/-
  Under the precondition every entry of both argument arrays is a real number.

  The precondition says, of each argument array, that `|x| < +∞` at every entry, where `|x| = max x (-x)` on the
  extended reals. An extended real with `max x (-x) < ⊤` is neither `⊤` nor `⊥`, so it is (the image of) a real; the
  array is then the array of its entries' real parts.
-/
import proofs.«153929_j2783138808483_2_alg».proof.Pre_finite_inputs
import proofs.«153929_j2783138808483_2_alg».proof.Proof.LibRealLift
import Idealize.ShloMosaic.Lib.ReduceAll
import Idealize.ShloMosaic.Lib.ValueIdx
import Idealize.ShloMosaic.PureOps.Ideal

open Idealize.ShloMosaic Idealize.ShloMosaic.ValueIdx

noncomputable section

namespace Cert.NormPoly

open Cert.LibRealLift

/-- The shape with no axes has one index. -/
instance subsingleton_scalar_idx : Subsingleton (⟨0, ![]⟩ : Shape).Idx := ⟨fun a b => funext fun d => d.elim0⟩

/-- An extended real whose absolute value compares below the `+∞` pattern is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have hinf : Ideal.ofBits .f32 0x7F800000#32 = ⊤ := by simp [Ideal.ofBits, Ideal.ieee]
  have h' : BitVec.ofBool (decide (max x (-x) < Ideal.ofBits .f32 0x7F800000#32)) = 1#1 := h
  rw [hinf] at h'
  induction x using EReal.rec with
  | bot => simp at h'
  | coe r => exact ⟨r, rfl⟩
  | top => simp at h'

/-- An array all of whose entries are real is the array of its entries' real parts. -/
theorem eq_cv_toReal {s : Shape} {φ : FTy} (X : FVec Ideal s φ) (h : ∀ i, ∃ r : ℝ, X i = (r : EReal)) :
    X = cv (fun i => (X i).toReal) := by
  funext i
  obtain ⟨r, hr⟩ := h i
  rw [cv_apply, hr, EReal.toReal_coe]

/-- Under the precondition both argument arrays are arrays of reals. -/
theorem real_of_pre [Cert.Pre_finite_inputs.Facts] (X Y : FVec Ideal Cert.Pre_finite_inputs.S128x8192 .f32)
    (h : Cert.Pre_finite_inputs.fn (F := Ideal) X Y = fun _ => 1#1) :
    X = cv (fun i => (X i).toReal) ∧ Y = cv (fun i => (Y i).toReal) := by
  have h0 := congrFun h ix0
  dsimp only [Cert.Pre_finite_inputs.fn] at h0
  obtain ⟨hx, hy⟩ := IntOp.andi_eq_one.1 h0
  exact ⟨eq_cv_toReal X fun i => real_of_abs_lt_inf (X i) (Host.reduce_andi_all _ _ _ _ _ hx i),
    eq_cv_toReal Y fun i => real_of_abs_lt_inf (Y i) (Host.reduce_andi_all _ _ _ _ _ hy i)⟩

end Cert.NormPoly

end
-- ==== Proof.LibHostLift.lean ====
/-
  Host operations on arrays of extended reals all of whose entries are real numbers.

  A square root of non-negative reals, a reciprocal square root of positive reals and a quotient by non-zero reals are
  again arrays of reals, computed entry by entry in ℝ. A scalar constant broadcast to any shape is the constant array. A
  vector `[N]` laid out as a row `[1, N]`, and a row repeated down `K` rows, re-index their operand and change no entry.
  The sum of a `[K, N]` array down its columns, started from a real initial value `r₀`, has entry `r₀ + Σ_d a (d, n)`.
  One row stacked under a `[K, N]` array gives the `[K+1, N]` array whose first `K` rows are the array and whose last row
  is the row.
-/
import proofs.«153929_j2783138808483_2_alg».proof.Proof.LibRealLift
import Idealize.ShloMosaic.Lib.Pipeline.Value
import Idealize.ShloMosaic.Lib.ValueLayout

open Idealize.ShloMosaic Idealize.ShloMosaic.ValueIdx

noncomputable section

namespace Cert.LibHostLift

open Cert.LibRealLift

variable {s : Shape} {φ : FTy}

/-! ## Entry-by-entry operations -/

theorem hostSqrt_cv (a : s.Idx → ℝ) (h : ∀ i, 0 ≤ a i) :
    Host.sqrt (cv a : FVec Ideal s φ) = cv (fun i => Real.sqrt (a i)) := by
  funext i
  show Ideal.sqrt ((a i : ℝ) : EReal) = _
  rw [Ideal.sqrt_coe, if_neg (not_lt.mpr (h i))]
  rfl

theorem hostRsqrt_cv (a : s.Idx → ℝ) (h : ∀ i, 0 < a i) :
    Host.rsqrt (cv a : FVec Ideal s φ) = cv (fun i => (Real.sqrt (a i))⁻¹) := by
  funext i
  show Ideal.rsqrt ((a i : ℝ) : EReal) = _
  rw [Ideal.rsqrt_coe, if_neg (not_lt.mpr (h i).le), if_neg (h i).ne']
  rfl

theorem hostDivf_cv (a b : s.Idx → ℝ) (h : ∀ i, b i ≠ 0) :
    Host.divf (cv a : FVec Ideal s φ) (cv b) = cv (fun i => a i / b i) := by
  funext i
  show Ideal.div ((a i : ℝ) : EReal) ((b i : ℝ) : EReal) = ((a i / b i : ℝ) : EReal)
  rw [Ideal.div_coe (h i), ← EReal.coe_mul, mul_one_div]

/-! ## Broadcasts -/

/-- A scalar constant whose bit pattern denotes the real `r`, broadcast to any shape, is the constant array `r`. -/
theorem bcast_const_cv {t : Shape} (h : (⟨0, ![]⟩ : Shape).BroadcastsInDim t (![] : Fin 0 → Fin t.rank)) (w : BitVec 32) (r : ℝ)
    (hw : Ideal.ofBits .f32 w = ((r : ℝ) : EReal)) :
    broadcastInDim t ![] h (constant (F := Ideal) ⟨0, ![]⟩ .f32 w) = (cv (fun _ => r) : FVec Ideal t .f32) := by
  funext i
  refine (broadcastInDim_apply _ h _ i (fun a => a.elim0) (fun a => a.elim0)).trans ?_
  exact hw

/-- A vector `[N]` as the one row of a `[1, N]` array. -/
theorem bcast_vec_row_cv {N : Nat} (a : (⟨1, ![N]⟩ : Shape).Idx → ℝ)
    (h : (⟨1, ![N]⟩ : Shape).BroadcastsInDim ⟨2, ![1, N]⟩ (![1] : Fin 1 → Fin 2)) :
    broadcastInDim ⟨2, ![1, N]⟩ ![1] h (cv a : FVec Ideal _ φ) = cv (fun i => a (ix1 (i 1))) := by
  funext i
  refine (broadcastInDim_apply _ h _ i (ix1 (i 1)) (fun c => ?_)).trans rfl
  match c with
  | ⟨0, _⟩ =>
    show (i 1).val = if N = 1 then 0 else (i 1).val
    by_cases hN : N = 1
    · rw [if_pos hN]; have hi : (i 1).val < N := (i 1).isLt; omega
    · rw [if_neg hN]

/-- The one row of a `[1, N]` array repeated down `K` rows. -/
theorem bcast_row_mat_cv {K N : Nat} (a : (⟨2, ![1, N]⟩ : Shape).Idx → ℝ)
    (h : (⟨2, ![1, N]⟩ : Shape).BroadcastsInDim ⟨2, ![K, N]⟩ (![0, 1] : Fin 2 → Fin 2)) :
    broadcastInDim ⟨2, ![K, N]⟩ ![0, 1] h (cv a : FVec Ideal _ φ) = cv (fun i => a (ix2 (0 : Fin 1) (i 1))) := by
  funext i
  refine (broadcastInDim_apply _ h _ i (ix2 (0 : Fin 1) (i 1)) (fun c => ?_)).trans rfl
  match c with
  | ⟨0, _⟩ =>
    show 0 = if (1 : Nat) = 1 then 0 else (i 0).val
    rw [if_pos rfl]
  | ⟨1, _⟩ =>
    show (i 1).val = if N = 1 then 0 else (i 1).val
    by_cases hN : N = 1
    · rw [if_pos hN]; have hi : (i 1).val < N := (i 1).isLt; omega
    · rw [if_neg hN]

/-! ## The sum down the columns -/

/-- The host's sum of a `[128, 8192]` array of reals over its first axis, started from a constant denoting the real
    `r₀`: entry `n` is `r₀ + Σ_d a (d, n)`. -/
theorem reduceAdd_cols_cv (a : (⟨2, ![128, 8192]⟩ : Shape).Idx → ℝ)
    (h : (⟨2, ![128, 8192]⟩ : Shape).ReducesTo [0] ⟨1, ![8192]⟩) (hu : 0 < (⟨0, ![]⟩ : Shape).numel)
    (w : BitVec 32) (r₀ : ℝ) (hw : Ideal.ofBits .f32 w = ((r₀ : ℝ) : EReal)) :
    Host.reduceAdd (cv a : FVec Ideal ⟨2, ![128, 8192]⟩ .f32) (constant (F := Ideal) ⟨0, ![]⟩ .f32 w) h hu
      = cv (fun i => r₀ + ∑ d : Fin 128, a (ix2 d (i 0))) := by
  funext i
  simp only [Host.reduceAdd, Ideal.hostReduceAdd_def]
  rw [Ideal.hostReduceAdd_single h (by decide)]
  show _ = ((r₀ + ∑ d : Fin 128, a (ix2 d (i 0)) : ℝ) : EReal)
  rw [EReal.coe_add, ← coe_sum]
  refine congrArg₂ (· + ·) hw (Finset.sum_congr rfl fun k _ => ?_)
  show ((a _ : ℝ) : EReal) = ((a _ : ℝ) : EReal)
  exact congrArg (fun j => ((a j : ℝ) : EReal)) (funext fun c => Fin.ext (by match c with | ⟨0, _⟩ => rfl | ⟨1, _⟩ => rfl))

/-! ## One row stacked under a matrix -/

/-- A `[K, N]` array with one more row under it. -/
def stackRow {K N : Nat} (a : (⟨2, ![K, N]⟩ : Shape).Idx → ℝ) (b : (⟨2, ![1, N]⟩ : Shape).Idx → ℝ) :
    (⟨2, ![K + 1, N]⟩ : Shape).Idx → ℝ := fun i =>
  if h : (i 0).val < K then a (ix2 ⟨(i 0).val, h⟩ (i 1)) else b (ix2 (0 : Fin 1) (i 1))

theorem concat_row_cv {K N : Nat} (a : (⟨2, ![K, N]⟩ : Shape).Idx → ℝ) (b : (⟨2, ![1, N]⟩ : Shape).Idx → ℝ)
    (h : Shape.Concatenates [(⟨2, ![K, N]⟩ : Shape), ⟨2, ![1, N]⟩] ⟨2, ![K + 1, N]⟩ 0) :
    concatenate ⟨2, ![K + 1, N]⟩ 0 [⟨⟨2, ![K, N]⟩, (cv a : FVec Ideal _ φ)⟩, ⟨⟨2, ![1, N]⟩, (cv b : FVec Ideal _ φ)⟩] h
      = cv (stackRow a b) := by
  funext i
  obtain ⟨k, j, rfl⟩ : ∃ (k : Fin (K + 1)) (j : Fin N), i = ix2 k j := ⟨i 0, i 1, eq_ix2 i⟩
  by_cases hk : k.val < K
  · rw [concatenate_pair_apply_left (0 : Fin 2) (cv a : FVec Ideal _ φ) (cv b : FVec Ideal _ φ) h (ix2 k j) rfl
      (ix2 (⟨k.val, hk⟩ : Fin K) j : (⟨2, ![K, N]⟩ : Shape).Idx)
      (fun c => match c with | ⟨0, _⟩ => rfl | ⟨1, _⟩ => rfl)]
    show ((a (ix2 ⟨k.val, hk⟩ j) : ℝ) : EReal) = ((stackRow a b (ix2 k j) : ℝ) : EReal)
    unfold stackRow
    rw [dif_pos (show ((ix2 k j : (⟨2, ![K + 1, N]⟩ : Shape).Idx) 0).val < K from hk)]
    rfl
  · have hkK : k.val = K := by have := k.isLt; omega
    rw [concatenate_pair_apply_right (0 : Fin 2) (cv a : FVec Ideal _ φ) (cv b : FVec Ideal _ φ) h (ix2 k j) rfl rfl
      (ix2 (0 : Fin 1) j : (⟨2, ![1, N]⟩ : Shape).Idx)
      (fun c hc => match c, hc with | ⟨0, _⟩, hc => absurd rfl hc | ⟨1, _⟩, _ => rfl)
      (by show 0 + K = k.val; omega)]
    show ((b (ix2 (0 : Fin 1) j) : ℝ) : EReal) = ((stackRow a b (ix2 k j) : ℝ) : EReal)
    unfold stackRow
    rw [dif_neg (show ¬ ((ix2 k j : (⟨2, ![K + 1, N]⟩ : Shape).Idx) 0).val < K from hk)]
    rfl

end Cert.LibHostLift

end
-- ==== Proof.Consts.lean ====
/-
  The four float constants the two programs spell, as the real numbers their bit patterns denote:
  `0.0` (the initial value of every sum), `1.0` (the numerator of the reference's reciprocals),
  `10.0` (the additive constant `c`, which the kernel appends to each scaled column) and `100.0` (`c²`).
-/
import Idealize.ShloMosaic.PureOps.Ideal

noncomputable section

namespace Cert.NormPoly.Consts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

theorem ofBits_hundred : Ideal.ofBits .f32 0x42C80000#32 = ((100 : ℝ) : EReal) := by
  simp [Ideal.ofBits, Ideal.ieee, -EReal.coe_mul]; norm_num

end Cert.NormPoly.Consts

end
-- ==== Proof.Spec.lean ====
/-
  The normalized polynomial kernel of degree three, over the reals.

  `x, y : [128, 8192]` hold 8192 columns of 128 features each. Write `a n = ‖x_n‖² + c²` and `b m = ‖y_m‖² + c²`
  with `c = 10`, so `c² = 100`; both are at least 100, hence positive.

  The reference computes `(1 / √(a n)³) · (⟨x_n, y_m⟩ + c²)³ · (1 / √(b m)³)`.

  The kernel scales every column by `u n = 1 / √(a n)` (resp. `v m = 1 / √(b m)`), appends the entry `c · u n` as a
  129-th feature, takes the inner product of the two augmented columns and cubes it:
  `Σ_d (x_dn u_n)(y_dm v_m) + (c u_n)(c v_m) = u_n v_m (⟨x_n, y_m⟩ + c²)`, whose cube is the reference's value because
  `(1/√a)³ = 1/√(a³)` for `a > 0`.
-/
import Idealize.ShloMosaic.Lib.ValueIdx
import Idealize.ShloMosaic.PureOps.Ideal

open Idealize.ShloMosaic Idealize.ShloMosaic.ValueIdx

noncomputable section

namespace Cert.NormPoly

/-- A real matrix with `a` rows and `b` columns. -/
abbrev Mat (a b : Nat) : Type := (⟨2, ![a, b]⟩ : Shape).Idx → ℝ

/-! ## The scalar law -/

/-- For `a > 0`: `1 / √(a·a·a) = (1/√a)·(1/√a)·(1/√a)`. -/
theorem one_div_sqrt_cube (a : ℝ) (ha : 0 < a) :
    1 / Real.sqrt (a * a * a) = (Real.sqrt a)⁻¹ * (Real.sqrt a)⁻¹ * (Real.sqrt a)⁻¹ := by
  have hs : 0 < Real.sqrt a := Real.sqrt_pos.mpr ha
  have hs2 : Real.sqrt a * Real.sqrt a = a := Real.mul_self_sqrt ha.le
  have e : a * a * a = (Real.sqrt a * Real.sqrt a * Real.sqrt a) * (Real.sqrt a * Real.sqrt a * Real.sqrt a) := by
    calc a * a * a = (Real.sqrt a * Real.sqrt a) * (Real.sqrt a * Real.sqrt a) * (Real.sqrt a * Real.sqrt a) := by rw [hs2]
      _ = _ := by ring
  rw [e, Real.sqrt_mul_self (by positivity)]
  field_simp

/-- The inner product of the two scaled, augmented columns, cubed, is the reference's value. -/
theorem poly_law {ι : Type*} [Fintype ι] (x y : ι → ℝ) (a b : ℝ) (ha : 0 < a) (hb : 0 < b) :
    ((∑ d, (x d * (Real.sqrt a)⁻¹) * (y d * (Real.sqrt b)⁻¹)) + (10 * (Real.sqrt a)⁻¹) * (10 * (Real.sqrt b)⁻¹))
      * ((∑ d, (x d * (Real.sqrt a)⁻¹) * (y d * (Real.sqrt b)⁻¹)) + (10 * (Real.sqrt a)⁻¹) * (10 * (Real.sqrt b)⁻¹))
      * ((∑ d, (x d * (Real.sqrt a)⁻¹) * (y d * (Real.sqrt b)⁻¹)) + (10 * (Real.sqrt a)⁻¹) * (10 * (Real.sqrt b)⁻¹))
    = (1 / Real.sqrt (a * a * a))
        * ((((∑ d, x d * y d) + 100) * ((∑ d, x d * y d) + 100)) * ((∑ d, x d * y d) + 100))
        * (1 / Real.sqrt (b * b * b)) := by
  have hk : (∑ d, (x d * (Real.sqrt a)⁻¹) * (y d * (Real.sqrt b)⁻¹)) + (10 * (Real.sqrt a)⁻¹) * (10 * (Real.sqrt b)⁻¹)
      = ((Real.sqrt a)⁻¹ * (Real.sqrt b)⁻¹) * ((∑ d, x d * y d) + 100) := by
    rw [mul_add, Finset.mul_sum]
    refine congrArg₂ (· + ·) (Finset.sum_congr rfl fun d _ => by ring) (by ring)
  rw [hk, one_div_sqrt_cube a ha, one_div_sqrt_cube b hb]
  ring

/-! ## The two programs' values, entry by entry -/

/-- `‖x_n‖² + c²`, spelled as both programs compute it: the sum of squares started from `0`, then `+ 100`. -/
def nrm (x : Mat 128 8192) (n : Fin 8192) : ℝ := (0 + ∑ d : Fin 128, x (ix2 d n) * x (ix2 d n)) + 100

theorem nrm_pos (x : Mat 128 8192) (n : Fin 8192) : 0 < nrm x n := by
  unfold nrm
  have : 0 ≤ ∑ d : Fin 128, x (ix2 d n) * x (ix2 d n) := Finset.sum_nonneg fun d _ => mul_self_nonneg _
  linarith

/-- The column scale `1 / √(‖x_n‖² + c²)`. -/
def scl (x : Mat 128 8192) (n : Fin 8192) : ℝ := (Real.sqrt (nrm x n))⁻¹

/-- The augmented matrix `[129, 8192]`: rows `0 … 127` are the scaled columns, row `128` is `c` times the scale. -/
def aug (x : Mat 128 8192) : Mat 129 8192 := fun i =>
  if h : (i 0).val < 128 then x (ix2 ⟨(i 0).val, h⟩ (i 1)) * scl x (i 1) else 10 * scl x (i 1)

/-- The inner product of augmented column `n` of `x` with augmented column `m` of `y`. -/
def inner129 (x y : Mat 128 8192) (n m : Fin 8192) : ℝ := ∑ j : Fin 129, aug x (ix2 j n) * aug y (ix2 j m)

/-- The kernel's value at row `n`, column `m`: the augmented inner product, cubed. -/
def kvalAt (x y : Mat 128 8192) (n m : Fin 8192) : ℝ := inner129 x y n m * inner129 x y n m * inner129 x y n m

/-- The kernel's value, as an array. -/
def kval (x y : Mat 128 8192) : Mat 8192 8192 := fun i => kvalAt x y (i 0) (i 1)

/-- `⟨x_n, y_m⟩ + c²`. -/
def dotc (x y : Mat 128 8192) (n m : Fin 8192) : ℝ := (∑ d : Fin 128, x (ix2 d n) * y (ix2 d m)) + 100

/-- The reference's value at row `n`, column `m`. -/
def rvalAt (x y : Mat 128 8192) (n m : Fin 8192) : ℝ :=
  (1 / Real.sqrt (nrm x n * nrm x n * nrm x n))
    * ((dotc x y n m * dotc x y n m) * dotc x y n m)
    * (1 / Real.sqrt (nrm y m * nrm y m * nrm y m))

/-- The reference's value, as an array. -/
def rval (x y : Mat 128 8192) : Mat 8192 8192 := fun i => rvalAt x y (i 0) (i 1)

theorem aug_lt (x : Mat 128 8192) (d : Fin 128) (n : Fin 8192) :
    aug x (ix2 (Fin.castSucc d : Fin 129) n) = x (ix2 d n) * scl x n := by
  unfold aug
  rw [dif_pos (show ((ix2 (Fin.castSucc d : Fin 129) n : (⟨2, ![129, 8192]⟩ : Shape).Idx) 0).val < 128 from d.isLt)]
  rfl

theorem aug_last (x : Mat 128 8192) (n : Fin 8192) :
    aug x (ix2 (Fin.last 128 : Fin 129) n) = 10 * scl x n := by
  unfold aug
  rw [dif_neg (show ¬ ((ix2 (Fin.last 128 : Fin 129) n : (⟨2, ![129, 8192]⟩ : Shape).Idx) 0).val < 128 from Nat.lt_irrefl 128)]

theorem inner129_eq (x y : Mat 128 8192) (n m : Fin 8192) :
    inner129 x y n m = (∑ d : Fin 128, (x (ix2 d n) * scl x n) * (y (ix2 d m) * scl y m)) + (10 * scl x n) * (10 * scl y m) := by
  unfold inner129
  rw [Fin.sum_univ_castSucc, aug_last, aug_last]
  refine congrArg (· + _) (Finset.sum_congr rfl fun d _ => ?_)
  rw [aug_lt, aug_lt]

/-- THE LAW, at one entry. -/
theorem kvalAt_eq_rvalAt (x y : Mat 128 8192) (n m : Fin 8192) : kvalAt x y n m = rvalAt x y n m := by
  unfold kvalAt rvalAt dotc
  rw [inner129_eq]
  unfold scl
  exact poly_law (fun d => x (ix2 d n)) (fun d => y (ix2 d m)) (nrm x n) (nrm y m) (nrm_pos x n) (nrm_pos y m)

/-- THE LAW: the kernel's value is the reference's, at every entry. -/
theorem kval_eq_rval (x y : Mat 128 8192) : kval x y = rval x y :=
  funext fun i => kvalAt_eq_rvalAt x y (i 0) (i 1)

end Cert.NormPoly

end
-- ==== Proof.RefValue.lean ====
/-
  The reference, read at real arguments: its result array is the array of `rval x y`.

  Column by column it forms `a n = (0 + Σ_d x_dn²) + 100`, the cube `a·a·a`, its square root (the cube is positive) and
  the reciprocal `1 / √(a·a·a)` (the root is not zero); likewise for `y`. Entry by entry it forms the inner product of
  column `n` of `x` with column `m` of `y`, adds `100` and cubes. The result multiplies the row factor, the cube and the
  column factor, in that order.
-/
import proofs.«153929_j2783138808483_2_alg».proof.Proof.Gen.ReferenceIdeal.Read
import proofs.«153929_j2783138808483_2_alg».proof.Proof.LibHostLift
import proofs.«153929_j2783138808483_2_alg».proof.Proof.Consts
import proofs.«153929_j2783138808483_2_alg».proof.Proof.Spec

open Idealize.ShloMosaic Idealize.ShloMosaic.ValueIdx

noncomputable section

namespace Cert.NormPoly.Ref

open Cert.ReferenceIdeal Cert.ReferenceIdeal.Read Cert.LibRealLift Cert.LibHostLift Cert.NormPoly

theorem cube_pos (x : Mat 128 8192) (n : Fin 8192) : 0 < nrm x n * nrm x n * nrm x n :=
  mul_pos (mul_pos (nrm_pos x n) (nrm_pos x n)) (nrm_pos x n)

/-- `‖x_n‖² + c²`, column by column. -/
theorem norm_x (x : Mat 128 8192) : val_main_v3 (F := Ideal) (cv (φ := .f32) x) = cv (φ := .f32) (fun i => nrm x (i 0)) := by
  unfold val_main_v3 val_main_v1 val_main_v0 val_main_cst val_main_v2 val_main_cst_0
  rw [mulf_cv, reduceAdd_cols_cv _ _ _ _ 0 Consts.ofBits_zero, bcast_const_cv _ _ 100 Consts.ofBits_hundred, addf_cv]
  rfl

theorem norm_y (y : Mat 128 8192) : val_main_v12 (F := Ideal) (cv (φ := .f32) y) = cv (φ := .f32) (fun i => nrm y (i 0)) := by
  unfold val_main_v12 val_main_v10 val_main_v9 val_main_cst_2 val_main_v11 val_main_cst_3
  rw [mulf_cv, reduceAdd_cols_cv _ _ _ _ 0 Consts.ofBits_zero, bcast_const_cv _ _ 100 Consts.ofBits_hundred, addf_cv]
  rfl

/-- The row factor `1 / √(a n)³`. -/
theorem scale_x (x : Mat 128 8192) :
    val_main_v8 (F := Ideal) (cv (φ := .f32) x) = cv (φ := .f32) (fun i => 1 / Real.sqrt (nrm x (i 0) * nrm x (i 0) * nrm x (i 0))) := by
  unfold val_main_v8 val_main_v7 val_main_cst_1 val_main_v6 val_main_v5 val_main_v4
  rw [norm_x, mulf_cv, mulf_cv, hostSqrt_cv (φ := .f32) (fun i : S8192.Idx => nrm x (i 0) * nrm x (i 0) * nrm x (i 0)) (fun i => (cube_pos x (i 0)).le),
    bcast_const_cv _ _ 1 Consts.ofBits_one,
    hostDivf_cv (φ := .f32) (fun _ : S8192.Idx => (1 : ℝ)) (fun i : S8192.Idx => Real.sqrt (nrm x (i 0) * nrm x (i 0) * nrm x (i 0)))
      (fun i => (Real.sqrt_pos.mpr (cube_pos x (i 0))).ne')]

/-- The column factor `1 / √(b m)³`. -/
theorem scale_y (y : Mat 128 8192) :
    val_main_v17 (F := Ideal) (cv (φ := .f32) y) = cv (φ := .f32) (fun i => 1 / Real.sqrt (nrm y (i 0) * nrm y (i 0) * nrm y (i 0))) := by
  unfold val_main_v17 val_main_v16 val_main_cst_4 val_main_v15 val_main_v14 val_main_v13
  rw [norm_y, mulf_cv, mulf_cv, hostSqrt_cv (φ := .f32) (fun i : S8192.Idx => nrm y (i 0) * nrm y (i 0) * nrm y (i 0)) (fun i => (cube_pos y (i 0)).le),
    bcast_const_cv _ _ 1 Consts.ofBits_one,
    hostDivf_cv (φ := .f32) (fun _ : S8192.Idx => (1 : ℝ)) (fun i : S8192.Idx => Real.sqrt (nrm y (i 0) * nrm y (i 0) * nrm y (i 0)))
      (fun i => (Real.sqrt_pos.mpr (cube_pos y (i 0))).ne')]

/-- The inner products of the columns of `x` with the columns of `y`. -/
theorem gram (x y : Mat 128 8192) :
    val_main_v18 (F := Ideal) (cv (φ := .f32) x) (cv (φ := .f32) y) = cv (φ := .f32) (fun i => ∑ d : Fin 128, x (ix2 d (i 0)) * y (ix2 d (i 1))) := by
  funext i
  obtain ⟨n, m, rfl⟩ : ∃ (n m : Fin 8192), i = ix2 n m := ⟨i 0, i 1, eq_ix2 i⟩
  rw [val_main_v18_apply]
  show (∑ k : Fin 128, ((x (lidx_main_v18 (ix2 n m) k) : ℝ) : EReal) * ((y (ridx_main_v18 (ix2 n m) k) : ℝ) : EReal))
    = ((∑ d : Fin 128, x (ix2 d n) * y (ix2 d m) : ℝ) : EReal)
  rw [← coe_sum]
  refine Finset.sum_congr rfl fun k _ => ?_
  have el : lidx_main_v18 (ix2 n m) k = ix2 k n := funext fun a => Fin.ext (by match a with | ⟨0, _⟩ => rfl | ⟨1, _⟩ => rfl)
  have er : ridx_main_v18 (ix2 n m) k = ix2 k m := funext fun a => Fin.ext (by match a with | ⟨0, _⟩ => rfl | ⟨1, _⟩ => rfl)
  rw [el, er, ← EReal.coe_mul]

/-- `(⟨x_n, y_m⟩ + c²)³`, entry by entry. -/
theorem poly (x y : Mat 128 8192) :
    val_main_v22 (F := Ideal) (cv (φ := .f32) x) (cv (φ := .f32) y)
      = cv (φ := .f32) (fun i => (dotc x y (i 0) (i 1) * dotc x y (i 0) (i 1)) * dotc x y (i 0) (i 1)) := by
  unfold val_main_v22 val_main_v21 val_main_v20 val_main_v19 val_main_cst_5
  rw [gram, bcast_const_cv _ _ 100 Consts.ofBits_hundred, addf_cv, mulf_cv, mulf_cv]
  rfl

/-- THE REFERENCE'S RESULT at real arguments. -/
theorem value (x y : Mat 128 8192) : val_main_v28 (F := Ideal) (cv (φ := .f32) x) (cv (φ := .f32) y) = cv (φ := .f32) (rval x y) := by
  funext i
  rw [val_main_v28_apply, val_main_v25_apply, val_main_v24_apply, val_main_v23_apply, val_main_v27_apply, val_main_v26_apply,
    scale_x, scale_y, poly]
  simp only [cv_apply, Ideal.mulf_def]
  rw [← EReal.coe_mul, ← EReal.coe_mul]
  rfl

end Cert.NormPoly.Ref

end
-- ==== Proof.LibLayoutLift.lean ====
/-
  Layout operations on arrays of reals (seen as arrays of extended reals): each re-lays entries and changes none,
  so it sends the array of a real function to the array of the re-indexed real function.

  `catC a b` sets two `[M, 256]` arrays side by side (`[M, 512]`: column `k < 256` from `a`, column `k ≥ 256` is column
  `k - 256` of `b`); `catR a b` stacks two `[256, N]` arrays (`[512, N]`) the same way along the rows; `tr` transposes a
  matrix. A matrix product against a stacked pair splits: `(a | b) · (u over v) = a·u + b·v`.
-/
import proofs.«153929_j2783138808483_2_alg».proof.Proof.LibRealLift
import Idealize.ShloMosaic.Lib.Pipeline.Value
import Idealize.ShloMosaic.Lib.ValueLayout

open Idealize.ShloMosaic Idealize.ShloMosaic.ValueIdx

noncomputable section

namespace Cert.LibLayoutLift

open Cert.LibRealLift

abbrev Arr2 (a b : Nat) : Type := (⟨2, ![a, b]⟩ : Shape).Idx → ℝ

/-- Two `[M, 256]` arrays side by side. -/
def catC {M : Nat} (a b : Arr2 M 256) : Arr2 M 512 := fun i =>
  if h : (i 1).val < 256 then a (ix2 (i 0) ⟨(i 1).val, h⟩) else b (ix2 (i 0) ⟨(i 1).val - 256, by have h5 : (i 1).val < 512 := (i 1).isLt; omega⟩)

/-- Two `[256, N]` arrays stacked. -/
def catR {N : Nat} (a b : Arr2 256 N) : Arr2 512 N := fun i =>
  if h : (i 0).val < 256 then a (ix2 ⟨(i 0).val, h⟩ (i 1)) else b (ix2 ⟨(i 0).val - 256, by have h5 : (i 0).val < 512 := (i 0).isLt; omega⟩ (i 1))

/-- The transposed matrix. -/
def tr {A B : Nat} (a : Arr2 A B) : Arr2 B A := fun i => a (ix2 (i 1) (i 0))

variable {φ : FTy}

theorem concat_cols_cv {M : Nat} (a b : Arr2 M 256)
    (h : Shape.Concatenates [(⟨2, ![M, 256]⟩ : Shape), ⟨2, ![M, 256]⟩] ⟨2, ![M, 512]⟩ 1) :
    concatenate ⟨2, ![M, 512]⟩ 1 [⟨⟨2, ![M, 256]⟩, (cv a : FVec Ideal _ φ)⟩, ⟨⟨2, ![M, 256]⟩, (cv b : FVec Ideal _ φ)⟩] h = cv (catC a b) := by
  funext i
  obtain ⟨p, k, rfl⟩ : ∃ (p : Fin M) (k : Fin 512), i = ix2 p k := ⟨i 0, i 1, eq_ix2 i⟩
  by_cases hk : k.val < 256
  · rw [concatenate_pair_apply_left (1 : Fin 2) (cv a : FVec Ideal _ φ) (cv b : FVec Ideal _ φ) h (ix2 p k) rfl
      (ix2 p (⟨k.val, hk⟩ : Fin 256) : (⟨2, ![M, 256]⟩ : Shape).Idx)
      (fun b => match b with | ⟨0, _⟩ => rfl | ⟨1, _⟩ => rfl)]
    show ((a (ix2 p ⟨k.val, hk⟩) : ℝ) : EReal) = ((catC a b (ix2 p k) : ℝ) : EReal)
    unfold catC
    rw [dif_pos (show ((ix2 p k : (⟨2, ![M, 512]⟩ : Shape).Idx) 1).val < 256 from hk)]
    rfl
  · have hk2 : k.val - 256 < 256 := by have := k.isLt; omega
    rw [concatenate_pair_apply_right (1 : Fin 2) (cv a : FVec Ideal _ φ) (cv b : FVec Ideal _ φ) h (ix2 p k) rfl rfl
      (ix2 p (⟨k.val - 256, hk2⟩ : Fin 256) : (⟨2, ![M, 256]⟩ : Shape).Idx)
      (fun b hb => match b, hb with | ⟨0, _⟩, _ => rfl | ⟨1, _⟩, hb => absurd rfl hb)
      (by show (k.val - 256) + 256 = k.val; omega)]
    show ((b (ix2 p ⟨k.val - 256, hk2⟩) : ℝ) : EReal) = ((catC a b (ix2 p k) : ℝ) : EReal)
    unfold catC
    rw [dif_neg (show ¬ ((ix2 p k : (⟨2, ![M, 512]⟩ : Shape).Idx) 1).val < 256 from hk)]
    rfl

theorem concat_rows_cv {N : Nat} (a b : Arr2 256 N)
    (h : Shape.Concatenates [(⟨2, ![256, N]⟩ : Shape), ⟨2, ![256, N]⟩] ⟨2, ![512, N]⟩ 0) :
    concatenate ⟨2, ![512, N]⟩ 0 [⟨⟨2, ![256, N]⟩, (cv a : FVec Ideal _ φ)⟩, ⟨⟨2, ![256, N]⟩, (cv b : FVec Ideal _ φ)⟩] h = cv (catR a b) := by
  funext i
  obtain ⟨k, j, rfl⟩ : ∃ (k : Fin 512) (j : Fin N), i = ix2 k j := ⟨i 0, i 1, eq_ix2 i⟩
  by_cases hk : k.val < 256
  · rw [concatenate_pair_apply_left (0 : Fin 2) (cv a : FVec Ideal _ φ) (cv b : FVec Ideal _ φ) h (ix2 k j) rfl
      (ix2 (⟨k.val, hk⟩ : Fin 256) j : (⟨2, ![256, N]⟩ : Shape).Idx)
      (fun b => match b with | ⟨0, _⟩ => rfl | ⟨1, _⟩ => rfl)]
    show ((a (ix2 ⟨k.val, hk⟩ j) : ℝ) : EReal) = ((catR a b (ix2 k j) : ℝ) : EReal)
    unfold catR
    rw [dif_pos (show ((ix2 k j : (⟨2, ![512, N]⟩ : Shape).Idx) 0).val < 256 from hk)]
    rfl
  · have hk2 : k.val - 256 < 256 := by have := k.isLt; omega
    rw [concatenate_pair_apply_right (0 : Fin 2) (cv a : FVec Ideal _ φ) (cv b : FVec Ideal _ φ) h (ix2 k j) rfl rfl
      (ix2 (⟨k.val - 256, hk2⟩ : Fin 256) j : (⟨2, ![256, N]⟩ : Shape).Idx)
      (fun b hb => match b, hb with | ⟨0, _⟩, hb => absurd rfl hb | ⟨1, _⟩, _ => rfl)
      (by show (k.val - 256) + 256 = k.val; omega)]
    show ((b (ix2 ⟨k.val - 256, hk2⟩ j) : ℝ) : EReal) = ((catR a b (ix2 k j) : ℝ) : EReal)
    unfold catR
    rw [dif_neg (show ¬ ((ix2 k j : (⟨2, ![512, N]⟩ : Shape).Idx) 0).val < 256 from hk)]
    rfl

theorem transpose_cv {A B : Nat} (a : Arr2 A B) (h : (⟨2, ![A, B]⟩ : Shape).Transposes [1, 0] ⟨2, ![B, A]⟩) :
    transpose ⟨2, ![B, A]⟩ [1, 0] (cv a : FVec Ideal _ φ) h = cv (tr a) := by
  funext i
  obtain ⟨j, k, rfl⟩ : ∃ (j : Fin B) (k : Fin A), i = ix2 j k := ⟨i 0, i 1, eq_ix2 i⟩
  rw [transpose_ix2_apply]
  rfl

/-- One row `[1, N]` broadcast down `M` rows. -/
theorem broadcast_row_cv {M N : Nat} (a : Arr2 1 N) (h : (⟨2, ![1, N]⟩ : Shape).Broadcasts ⟨2, ![M, N]⟩) :
    broadcastTo ⟨2, ![M, N]⟩ (cv a : FVec Ideal _ φ) h = cv (fun i => a (ix2 (0 : Fin 1) (i 1))) := by
  funext i
  obtain ⟨p, j, rfl⟩ : ∃ (p : Fin M) (j : Fin N), i = ix2 p j := ⟨i 0, i 1, eq_ix2 i⟩
  rw [broadcastTo_1b_ab_apply]
  rfl

/-- A shape cast between equal shapes changes nothing. -/
theorem shapeCast_same_cv {s : Shape} (a : s.Idx → ℝ) (h : s.ShapeCasts s) :
    shapeCast s (cv a : FVec Ideal s φ) h = cv a := by
  funext i
  exact shapeCast_apply _ h i i rfl

/-! ## A product against a stacked pair splits -/

theorem sum_fin512 (f : Fin 512 → ℝ) :
    (∑ k : Fin 512, f k) = (∑ k : Fin 256, f ⟨k.val, by have := k.isLt; omega⟩) + ∑ k : Fin 256, f ⟨k.val + 256, by have := k.isLt; omega⟩ := by
  have e := Fin.sum_univ_add (a := 256) (b := 256) (fun k : Fin (256 + 256) => f ⟨k.val, by have := k.isLt; omega⟩)
  rw [show (∑ k : Fin 512, f k) = ∑ k : Fin (256 + 256), f ⟨k.val, by have := k.isLt; omega⟩ from rfl, e]
  refine congrArg₂ (· + ·) ?_ ?_
  · exact Finset.sum_congr rfl fun k _ => congrArg f (Fin.ext rfl)
  · exact Finset.sum_congr rfl fun k _ => congrArg f (Fin.ext (by show 256 + k.val = k.val + 256; omega))

/-- `(a | b) · (u over v) = a·u + b·v`, entry by entry. -/
theorem mm_cat {M N : Nat} (a b : Arr2 M 256) (u v : Arr2 256 N) (p : Fin M) (j : Fin N) :
    mm M 512 N (catC a b) (catR u v) (ix2 p j) = mm M 256 N a u (ix2 p j) + mm M 256 N b v (ix2 p j) := by
  unfold mm
  rw [sum_fin512]
  refine congrArg₂ (· + ·) ?_ ?_
  · refine Finset.sum_congr rfl fun k _ => ?_
    have hk : k.val < 256 := k.isLt
    show catC a b (ix2 p ⟨k.val, _⟩) * catR u v (ix2 ⟨k.val, _⟩ j) = a (ix2 p k) * u (ix2 k j)
    unfold catC catR
    rw [dif_pos (show ((ix2 p (⟨k.val, by omega⟩ : Fin 512) : (⟨2, ![M, 512]⟩ : Shape).Idx) 1).val < 256 from hk),
      dif_pos (show ((ix2 (⟨k.val, by omega⟩ : Fin 512) j : (⟨2, ![512, N]⟩ : Shape).Idx) 0).val < 256 from hk)]
    rfl
  · refine Finset.sum_congr rfl fun k _ => ?_
    have hk : ¬ (k.val + 256 < 256) := by omega
    show catC a b (ix2 p ⟨k.val + 256, _⟩) * catR u v (ix2 ⟨k.val + 256, _⟩ j) = b (ix2 p k) * v (ix2 k j)
    unfold catC catR
    rw [dif_neg (show ¬ ((ix2 p (⟨k.val + 256, by have := k.isLt; omega⟩ : Fin 512) : (⟨2, ![M, 512]⟩ : Shape).Idx) 1).val < 256 from hk),
      dif_neg (show ¬ ((ix2 (⟨k.val + 256, by have := k.isLt; omega⟩ : Fin 512) j : (⟨2, ![512, N]⟩ : Shape).Idx) 0).val < 256 from hk)]
    have e : (⟨k.val + 256 - 256, by have := k.isLt; omega⟩ : Fin 256) = k := Fin.ext (by simp)
    show b (ix2 p ⟨k.val + 256 - 256, _⟩) * v (ix2 ⟨k.val + 256 - 256, _⟩ j) = b (ix2 p k) * v (ix2 k j)
    rw [e]

end Cert.LibLayoutLift

end
-- ==== Proof.Prelude.lean ====
/-
  The host operations before the region, at real arguments.

  From an argument array `X : [128, 8192]` the host forms the column norms `a n = (0 + Σ_d X_dn²) + 100`, the column scales
  `u n = 1 / √(a n)` (every `a n` is positive), the scaled columns `X_dn · u n`, the extra row `10 · u n`, and stacks the
  extra row under the scaled columns: the augmented `[129, 8192]` array `aug`. The change of float format after that does
  nothing to real entries. The second operand of the region is the augmented `Y`; the first is the augmented `X`
  transposed, `[8192, 129]`.
-/
import proofs.«153929_j2783138808483_2_alg».proof.Proof.Gen.KernelIdeal.Frame
import proofs.«153929_j2783138808483_2_alg».proof.Proof.LibHostLift
import proofs.«153929_j2783138808483_2_alg».proof.Proof.LibLayoutLift
import proofs.«153929_j2783138808483_2_alg».proof.Proof.Consts
import proofs.«153929_j2783138808483_2_alg».proof.Proof.Spec
import Idealize.ShloMosaic.Lib.StableHlo.Run

open Idealize.ShloMosaic Idealize.ShloMosaic.ValueIdx

noncomputable section

namespace Cert.NormPoly.Prelude

open Cert.KernelIdeal Cert.KernelIdeal.Gen Idealize.ShloMosaic.TcCoe Idealize.SL.Sem Idealize.ShloMosaic.StableHlo
open Cert.LibRealLift Cert.LibHostLift Cert.LibLayoutLift Cert.NormPoly

/-! ## The host terms -/

/-- The column norms plus `c²`, as the host computes them. -/
def normT (X : FVec Ideal S128x8192 .f32) : FVec Ideal S8192 .f32 :=
  addf (Host.reduceAdd (mulf X X) (constant (F := Ideal) S_ .f32 0x00000000#32) reducesTo_S128x8192_S8192_d0 h_S_)
    (broadcastInDim S8192 ![] bcast_S_S8192 (constant (F := Ideal) S_ .f32 0x42C80000#32))

/-- The augmented array, as the host computes it. -/
def augT (X : FVec Ideal S128x8192 .f32) : FVec Ideal S129x8192 .bf16 :=
  truncf .bf16
    (concatenate S129x8192 0
      [⟨S128x8192,
          mulf X (broadcastInDim S128x8192 ![0, 1] bcast_S1x8192_S128x8192_0_1
            (broadcastInDim S1x8192 ![1] bcast_S8192_S1x8192_1 (Host.rsqrt (normT X))))⟩,
        ⟨S1x8192,
          broadcastInDim S1x8192 ![1] bcast_S8192_S1x8192_1
            (mulf (broadcastInDim S8192 ![] bcast_S_S8192 (constant (F := Ideal) S_ .f32 0x41200000#32)) (Host.rsqrt (normT X)))⟩]
      concatenates_S128x8192_S1x8192_S129x8192_d0)
    bitsLt_bf16_f32

variable (m : (ℓ : Loc nD τ sig) → Buf (Elt Ideal) ℓ)

set_option maxHeartbeats 2000000 in
/-- The region's second operand is the augmented second argument. -/
theorem staged_y (c : Dev nD) :
    (V m c main_v26 : FVec Ideal S129x8192 .bf16) = augT (m ((c : Thread nD τ).loc main_arg1)) := by
  show StableHlo.after hostOps0 (fun b => m (c, b)) (Proc.devRef .tc main_v26) = _
  simp only [hostOps0]
  after_results
  rfl

set_option maxHeartbeats 2000000 in
/-- The region's first operand is the augmented first argument, transposed. -/
theorem staged_x (c : Dev nD) :
    (V m c main_v13 : FVec Ideal S8192x129 .bf16)
      = transpose S8192x129 [1, 0] (augT (m ((c : Thread nD τ).loc main_arg0))) transposes_S129x8192_S8192x129_1_0 := by
  show StableHlo.after hostOps0 (fun b => m (c, b)) (Proc.devRef .tc main_v13) = _
  simp only [hostOps0]
  after_results
  rfl

/-! ## The host terms at real arguments -/

theorem normT_cv (x : Mat 128 8192) : normT (cv (φ := .f32) x) = cv (φ := .f32) (fun i => nrm x (i 0)) := by
  unfold normT
  rw [mulf_cv, reduceAdd_cols_cv _ _ _ _ 0 Consts.ofBits_zero, bcast_const_cv _ _ 100 Consts.ofBits_hundred, addf_cv]
  rfl

theorem scaleT_cv (x : Mat 128 8192) :
    Host.rsqrt (normT (cv (φ := .f32) x)) = cv (φ := .f32) (fun i => scl x (i 0)) := by
  rw [normT_cv, hostRsqrt_cv (φ := .f32) (fun i : S8192.Idx => nrm x (i 0)) (fun i => nrm_pos x (i 0))]
  rfl

theorem augT_cv (x : Mat 128 8192) : augT (cv (φ := .f32) x) = cv (φ := .bf16) (aug x) := by
  unfold augT
  rw [scaleT_cv, bcast_vec_row_cv, bcast_row_mat_cv, mulf_cv, bcast_const_cv _ _ 10 Consts.ofBits_ten, mulf_cv,
    bcast_vec_row_cv, concat_row_cv (K := 128) (N := 8192), truncf_cv]
  funext i
  change ((_ : ℝ) : EReal) = ((aug x i : ℝ) : EReal)
  refine congrArg (fun r : ℝ => (r : EReal)) ?_
  unfold stackRow aug
  by_cases h : (i 0).val < 128
  · rw [dif_pos h] <;> rfl
  · rw [dif_neg h] <;> rfl

/-- The region's operands when the arguments are the real arrays `x`, `y`. -/
theorem staged_y_cv (c : Dev nD) (y : Mat 128 8192) (hy : m ((c : Thread nD τ).loc main_arg1) = cv (φ := .f32) y) :
    (V m c main_v26 : FVec Ideal S129x8192 .bf16) = cv (φ := .bf16) (aug y) := by
  rw [staged_y, hy, augT_cv]

theorem staged_x_cv (c : Dev nD) (x : Mat 128 8192) (hx : m ((c : Thread nD τ).loc main_arg0) = cv (φ := .f32) x) :
    (V m c main_v13 : FVec Ideal S8192x129 .bf16) = cv (φ := .bf16) (tr (aug x)) := by
  rw [staged_x, hx, augT_cv, transpose_cv]

end Cert.NormPoly.Prelude

end
-- ==== Proof.Body.lean ====
/-
  The kernel body on real blocks.

  The body multiplies a `[1024, 129]` block by a `[129, 1024]` block into a zero accumulator and cubes the product entry
  by entry (two multiplications). On blocks of reals the matrix product is the real one, so the stored block has entry
  `(p, q)` equal to `k·k·k` with `k = Σ_j A (p, j) · B (j, q)`, `j` over the 129 augmented features.
-/
import proofs.«153929_j2783138808483_2_alg».proof.Proof.Gen.KernelIdeal.Skeleton
import proofs.«153929_j2783138808483_2_alg».proof.Proof.LibRealLift
import proofs.«153929_j2783138808483_2_alg».proof.Proof.LibLayoutLift

open Idealize.ShloMosaic Idealize.ShloMosaic.ValueIdx

noncomputable section

namespace Cert.NormPoly.Body

open Cert.KernelIdeal Cert.KernelIdeal.Gen Cert.LibRealLift Cert.LibLayoutLift

/-- The product of the two blocks, cubed. -/
def cube (A : (⟨2, ![1024, 129]⟩ : Shape).Idx → ℝ) (B : (⟨2, ![129, 1024]⟩ : Shape).Idx → ℝ) :
    (⟨2, ![1024, 1024]⟩ : Shape).Idx → ℝ :=
  fun i => (mm 1024 129 1024 A B i * mm 1024 129 1024 A B i) * mm 1024 129 1024 A B i

/-- The body's stored value on real blocks. -/
theorem payload_cv (A : (⟨2, ![1024, 129]⟩ : Shape).Idx → ℝ) (B : (⟨2, ![129, 1024]⟩ : Shape).Idx → ℝ) :
    k0_pay1 (F := Ideal) (cv (φ := .bf16) A) (cv (φ := .bf16) B) = cv (φ := .f32) (cube A B) := by
  unfold k0_pay1
  dsimp only
  rw [shapeCast_same_cv, shapeCast_same_cv]
  have hm : matmul dot_S1024x129_S129x1024_S1024x1024_1_0_0_1_n_n none (cv (φ := .bf16) A) (cv (φ := .bf16) B)
      (constant (F := Ideal) S1024x1024 .f32 0x00000000#32) = cv (φ := .f32) (mm 1024 129 1024 A B) :=
    matmul_plain_cv 1024 129 1024 none A B
  rw [hm, mulf_cv, mulf_cv]
  rfl

end Cert.NormPoly.Body

end
-- ==== Proof.Blocks.lean ====
/-
  From blocks to the whole array.

  The output `[8192, 8192]` is tiled by `8 × 8` blocks of `1024 × 1024`. The point with block indices `(bi, bj)` reads rows
  `bi·1024 … bi·1024 + 1023` of the transposed augmented `x` (all 129 columns) and columns `bj·1024 … bj·1024 + 1023` of
  the augmented `y` (all 129 rows), and writes back the cube of their product: entry `(p, q)` of its block is
  `kvalAt x y (bi·1024 + p) (bj·1024 + q)`, which is the entry of the whole array `kval x y` at the block's place. Every
  index of the array lies in the block of the point with `bi = row / 1024`, `bj = column / 1024`, so the array ends
  holding `kval x y`.
-/
import proofs.«153929_j2783138808483_2_alg».proof.Proof.Gen.KernelIdeal.Value
import proofs.«153929_j2783138808483_2_alg».proof.Proof.Prelude
import proofs.«153929_j2783138808483_2_alg».proof.Proof.Body

open Idealize.ShloMosaic Idealize.ShloMosaic.ValueIdx

noncomputable section

namespace Cert.NormPoly.Blocks

open Cert.KernelIdeal Cert.KernelIdeal.Gen Idealize.ShloMosaic.TcCoe Idealize.SL.Sem
open Idealize.ShloMosaic.Pipeline (Dat)
open Cert.LibRealLift Cert.LibLayoutLift Cert.NormPoly Cert.NormPoly.Body Cert.NormPoly.Prelude

/-! ## The block index maps, decided over the 64 grid points -/

theorem zero_off : (![0, 0] : Fin 2 → Nat) = fun _ => 0 := funext fun a => by fin_cases a <;> rfl

/-- The first operand's block moves with the output's row block and spans all columns; the second operand's block spans
    all rows and moves with the output's column block; the output's block indices are below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) < 8
    ∧ win0_2.index t (1 : Fin 2) < 8 :=
  (by decide +kernel : ∀ t : Fin grid0.N, _)

/-- Every pair of block indices is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The output's row block and column block at point `t`. -/
def bi (t : Fin cfg0.N) : Fin 8 := ⟨win0_2.index t (0 : Fin 2), (idx_facts t).2.2.2.2.1⟩
def bj (t : Fin cfg0.N) : Fin 8 := ⟨win0_2.index t (1 : Fin 2), (idx_facts t).2.2.2.2.2⟩

/-! ## The real blocks -/

/-- Position `p` of block `b` along an axis of extent 8192. -/
def at8 (b : Fin 8) (p : Fin 1024) : Fin 8192 := ⟨b.val * 1024 + p.val, by have := b.isLt; have := p.isLt; omega⟩

/-- Rows `b·1024 …` of the transposed augmented `x`. -/
def blkA (x : Mat 128 8192) (b : Fin 8) : (⟨2, ![1024, 129]⟩ : Shape).Idx → ℝ := fun j => aug x (ix2 (j 1) (at8 b (j 0)))

/-- Columns `b·1024 …` of the augmented `y`. -/
def blkB (y : Mat 128 8192) (b : Fin 8) : (⟨2, ![129, 1024]⟩ : Shape).Idx → ℝ := fun j => aug y (ix2 (j 0) (at8 b (j 1)))

/-- The cube of the two blocks' product is the kernel's value at the block's place. -/
theorem cube_blk (x y : Mat 128 8192) (b b' : Fin 8) (j : (⟨2, ![1024, 1024]⟩ : Shape).Idx) :
    cube (blkA x b) (blkB y b') j = kvalAt x y (at8 b (j 0)) (at8 b' (j 1)) := rfl

variable (m : (ℓ : Loc nD τ sig) → Buf (Elt Ideal) ℓ) (ρ : Dev nD → PrngReg)

/-! ## The input blocks at a point -/

theorem read_x (c : Dev nD) (t : Fin cfg0.N) (x : Mat 128 8192)
    (hx : m ((c : Thread nD τ).loc main_arg0) = cv (φ := .f32) x) :
    (iblk m c 0 t : Vec Ideal S1024x129 .bf16) = cv (φ := .bf16) (blkA x (bi t)) := by
  funext j
  show (V m c main_v13 : FVec Ideal S8192x129 .bf16) (((cfg0.win 0).blk t).view.emb j) = ((blkA x (bi t) j : ℝ) : EReal)
  rw [staged_x_cv m c x hx]
  show ((aug x (ix2 ((((cfg0.win 0).blk t).view.emb j) 1) ((((cfg0.win 0).blk t).view.emb j) 0)) : ℝ) : EReal)
    = ((aug x (ix2 (j 1) (at8 (bi t) (j 0))) : ℝ) : EReal)
  refine congrArg (fun i => ((aug x i : ℝ) : EReal)) (funext fun a => Fin.ext ?_)
  obtain ⟨e0, e1, e2, e3, e4, e5⟩ := idx_facts t
  match a with
  | ⟨0, _⟩ =>
    show win0_0.index t (1 : Fin 2) * 129 + 1 * (j 1).val = (j 1).val
    omega
  | ⟨1, _⟩ =>
    show win0_0.index t (0 : Fin 2) * 1024 + 1 * (j 0).val = win0_2.index t (0 : Fin 2) * 1024 + (j 0).val
    omega

theorem read_y (c : Dev nD) (t : Fin cfg0.N) (y : Mat 128 8192)
    (hy : m ((c : Thread nD τ).loc main_arg1) = cv (φ := .f32) y) :
    (iblk m c 1 t : Vec Ideal S129x1024 .bf16) = cv (φ := .bf16) (blkB y (bj t)) := by
  funext j
  show (V m c main_v26 : FVec Ideal S129x8192 .bf16) (((cfg0.win 1).blk t).view.emb j) = ((blkB y (bj t) j : ℝ) : EReal)
  rw [staged_y_cv m c y hy]
  show ((aug y (((cfg0.win 1).blk t).view.emb j) : ℝ) : EReal) = ((aug y (ix2 (j 0) (at8 (bj t) (j 1))) : ℝ) : EReal)
  refine congrArg (fun i => ((aug y i : ℝ) : EReal)) (funext fun a => Fin.ext ?_)
  obtain ⟨e0, e1, e2, e3, e4, e5⟩ := idx_facts t
  match a with
  | ⟨0, _⟩ =>
    show win0_1.index t (0 : Fin 2) * 129 + 1 * (j 0).val = (j 0).val
    omega
  | ⟨1, _⟩ =>
    show win0_1.index t (1 : Fin 2) * 1024 + 1 * (j 1).val = win0_2.index t (1 : Fin 2) * 1024 + (j 1).val
    omega

/-- The body's stored value on blocks that are real blocks. -/
theorem point_value (x0 : Vec Ideal S1024x129 .bf16) (x1 : Vec Ideal S129x1024 .bf16)
    (A : (⟨2, ![1024, 129]⟩ : Shape).Idx → ℝ) (B : (⟨2, ![129, 1024]⟩ : Shape).Idx → ℝ)
    (h0 : x0 = cv (φ := .bf16) A) (h1 : x1 = cv (φ := .bf16) B) :
    k0_pay1 (F := Ideal) x0 x1 = cv (φ := .f32) (cube A B) := by
  subst h0 h1
  exact payload_cv A B

/-! ## What a point writes back -/

theorem flushed_eq (c : Dev nD) (t : Fin cfg0.N) (x y : Mat 128 8192)
    (hx : m ((c : Thread nD τ).loc main_arg0) = cv (φ := .f32) x)
    (hy : m ((c : Thread nD τ).loc main_arg1) = cv (φ := .f32) y) :
    (dats m 0 c).flushed 2 t = ((cfg0.win 2).blk t).view.read (Elt Ideal) (cv (φ := .f32) (kval x y)) := by
  rw [Cert.KernelIdeal.Value.flushed2]
  unfold out0_2
  rw [View.canon_unit_zero zero_off]
  simp only [View.ld_unit_zero (S := S1024x129) zero_off, View.ld_unit_zero (S := S129x1024) zero_off]
  rw [point_value (iblk m c 0 t) (iblk m c 1 t) (blkA x (bi t)) (blkB y (bj t)) (read_x m c t x hx) (read_y m c t y hy)]
  funext j
  show ((cube (blkA x (bi t)) (blkB y (bj t)) j : ℝ) : EReal)
    = ((kvalAt x y ((((cfg0.win 2).blk t).view.emb j) 0) ((((cfg0.win 2).blk t).view.emb j) 1) : ℝ) : EReal)
  rw [cube_blk]
  refine congrArg₂ (fun n n' => ((kvalAt x y n n' : ℝ) : EReal)) (Fin.ext ?_) (Fin.ext ?_)
  · show win0_2.index t (0 : Fin 2) * 1024 + (j 0).val = win0_2.index t (0 : Fin 2) * 1024 + 1 * (j 0).val
    omega
  · show win0_2.index t (1 : Fin 2) * 1024 + (j 1).val = win0_2.index t (1 : Fin 2) * 1024 + 1 * (j 1).val
    omega

/-! ## The cover -/

theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v27).slice (win0_2.rect t)).set ↔ _
  rw [View.set_slice_whole, Rect.mem_set_unit]
  exact Iff.rfl

theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-! ## The array after the run -/

theorem final (c : Dev nD) (x y : Mat 128 8192)
    (hx : m ((c : Thread nD τ).loc main_arg0) = cv (φ := .f32) x)
    (hy : m ((c : Thread nD τ).loc main_arg1) = cv (φ := .f32) y) :
    (dats m 0 c).arrAt 2 cfg0.N = cv (φ := .f32) (kval x y) :=
  (dats m 0 c).arrAt_eq_of_cover 2 (cv (φ := .f32) (kval x y)) (fun t _ => flushed_eq m c t x y hx hy) cover

/-- The kernel's run at real arguments: the result array ends holding `kval`, the arguments unchanged. -/
theorem run (x y : Dev nD → Mat 128 8192)
    (hx : ∀ c : Dev nD, m ((c : Thread nD τ).loc main_arg0) = cv (φ := .f32) (x c))
    (hy : ∀ c : Dev nD, m ((c : Thread nD τ).loc main_arg1) = cv (φ := .f32) (y c)) :
    θ_run defs (onTc (τ := τ) (main (F := Ideal))) ⟨m, fun _ => 0, ρ⟩ fun r => ∀ c : Dev nD,
      r.2.mem ((c : Thread nD τ).loc main_v27) = cv (φ := .f32) (kval (x c) (y c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (x c) (y c) (hx c) (hy c)), (h c).2⟩)
    (Cert.KernelIdeal.Value.run_blocks m ρ)

end Cert.NormPoly.Blocks

end
-- ==== Proof.lean ====
/-
  A normalized polynomial kernel of degree three: the Gram matrix `out[n, m] = s₁[n] · (⟨x_n, y_m⟩ + c²)³ · s₂[m]` of the
  columns of `x, y : [128, 8192]`, with `c = 10`, `s₁[n] = 1 / √((‖x_n‖² + c²)³)` and `s₂[m] = 1 / √((‖y_m‖² + c²)³)`.

  The reference computes exactly that. The kernel folds the normalizers into its operands: it scales column `n` of `x` by
  `u_n = 1 / √(‖x_n‖² + c²)`, appends `c · u_n` as a 129-th feature (likewise for `y`), and in a grid of `8 × 8` blocks of
  `1024 × 1024` takes the product of the two augmented operands and cubes it entry by entry.

  Over the extended reals the two agree when every input is finite. All entries are then reals, `‖x_n‖² + c² ≥ 100 > 0`,
  the augmented inner product is `u_n v_m (⟨x_n, y_m⟩ + c²)` (a factor moved across a finite sum of reals), and its cube is
  the reference's value because `(1/√a)³ = 1/√(a³)` for `a > 0`. Changes of float format are the identity.

  The pieces: `Spec` states both values over ℝ and proves the law; `Finite` reads the precondition; `RefValue` reads the
  reference's result as `rval`; `Prelude`, `Body` and `Blocks` read the kernel's host operations, its body and its
  blocks, ending with the whole result array at `kval`. The frames are the generated ones; the idealization rewrote nothing.
-/
import proofs.«153929_j2783138808483_2_alg».proof.Defs
import proofs.«153929_j2783138808483_2_alg».proof.Proof.Gen.Kernel
import proofs.«153929_j2783138808483_2_alg».proof.Proof.Gen.Kernel.Skeleton
import proofs.«153929_j2783138808483_2_alg».proof.Proof.Gen.Kernel.Launch
import proofs.«153929_j2783138808483_2_alg».proof.Proof.Gen.Kernel.Points
import proofs.«153929_j2783138808483_2_alg».proof.Proof.Gen.Kernel.Frame
import proofs.«153929_j2783138808483_2_alg».proof.Proof.Gen.KernelIdeal
import proofs.«153929_j2783138808483_2_alg».proof.Proof.Gen.KernelIdeal.Skeleton
import proofs.«153929_j2783138808483_2_alg».proof.Proof.Gen.KernelIdeal.Launch
import proofs.«153929_j2783138808483_2_alg».proof.Proof.Gen.KernelIdeal.Points
import proofs.«153929_j2783138808483_2_alg».proof.Proof.Gen.KernelIdeal.Frame
import proofs.«153929_j2783138808483_2_alg».proof.Proof.Gen.ReferenceIdeal
import proofs.«153929_j2783138808483_2_alg».proof.Proof.Gen.Pre_finite_inputs
import proofs.«153929_j2783138808483_2_alg».proof.Proof.Gen.KernelIdeal.Value
import proofs.«153929_j2783138808483_2_alg».proof.Proof.Gen.ReferenceIdeal.Run
import proofs.«153929_j2783138808483_2_alg».proof.Proof.Gen.ReferenceIdeal.Read
import proofs.«153929_j2783138808483_2_alg».proof.Proof.Finite
import proofs.«153929_j2783138808483_2_alg».proof.Proof.RefValue
import proofs.«153929_j2783138808483_2_alg».proof.Proof.Blocks
import Idealize.ShloMosaic.Adequacy
import Idealize.ShloMosaic.Init

noncomputable section

namespace Cert.Proof

open Idealize.ShloMosaic Idealize.ShloMosaic.TcCoe Idealize.SL.Sem
open Cert.LibRealLift Cert.NormPoly

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's real value `rval` of the arguments' real parts: the kernel's
    at `kval`, which is `rval` by the law; the reference's by reading its operations. -/
theorem algebraic : Cert.algebraic_KernelIdeal_ReferenceIdeal := by
  intro m ρ m' ρ' hpre hagree
  obtain ⟨x, hx⟩ : ∃ x : Dev Cert.KernelIdeal.nD → Mat 128 8192, ∀ c : Dev Cert.KernelIdeal.nD,
      m ((c.tc : Thread Cert.KernelIdeal.nD Cert.KernelIdeal.τ).loc Cert.KernelIdeal.main_arg0) = cv (φ := .f32) (x c) :=
    ⟨_, fun c => (real_of_pre _ _ (hpre c)).1⟩
  obtain ⟨y, hy⟩ : ∃ y : Dev Cert.KernelIdeal.nD → Mat 128 8192, ∀ c : Dev Cert.KernelIdeal.nD,
      m ((c.tc : Thread Cert.KernelIdeal.nD Cert.KernelIdeal.τ).loc Cert.KernelIdeal.main_arg1) = cv (φ := .f32) (y c) :=
    ⟨_, fun c => (real_of_pre _ _ (hpre c)).2⟩
  refine ⟨fun c => cv (φ := .f32) (rval (x c) (y c)), ?_, ?_⟩
  · exact (θ_run Cert.KernelIdeal.defs _ _).mono
      (fun r h c => ⟨(h c).1.trans (congrArg (cv (φ := .f32)) (kval_eq_rval (x c) (y c))), (h c).2⟩)
      (Cert.NormPoly.Blocks.run m ρ x y hx hy)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, (hagree c).1, (hagree c).2, hx c, hy c]
    exact Cert.NormPoly.Ref.value (x c) (y c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
